-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x2048x2048 : Shape := ⟨3, ![2, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S2x2048x2048 32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x2048x2048 : Shape := ⟨3, ![2, 2048, 2048]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S1x512x2048 : Shape := ⟨3, ![1, 512, 2048]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x2048x2048, .i32⟩
  | .hbm, ⟨4, _⟩ => ⟨S2x16x2048x64, .f32⟩
  | .hbm, ⟨5, _⟩ => ⟨S2x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x512x2048, .i32⟩
  | .local _ .vmem, ⟨7, _⟩ => ⟨S1x512x2048, .i32⟩
  | .local _ .vmem, ⟨8, _⟩ => ⟨S1x1x512x64, .f32⟩
  | .local _ .vmem, ⟨9, _⟩ => ⟨S1x1x512x64, .f32⟩
  | .local _ .vmem, ⟨10, _⟩ => ⟨S1x1x512x2048, .f32⟩
  | .local _ .vmem, ⟨11, _⟩ => ⟨S1x1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .f32 = 32 ∨ (Rect.block (s := S2x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S2x2048x2048.size a
  hwx0_3 : ∀ i : grid0.Coords, EltTy.bits .i32 = 32 ∨ (Rect.block (s := S2x2048x2048) S1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S2x16x2048x64.size a
  hwx0_4 : ∀ i : grid0.Coords, EltTy.bits .f32 = 32 ∨ (Rect.block (s := S2x16x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S2x16x2048x2048.size a
  hwx0_5 : ∀ i : grid0.Coords, EltTy.bits .f32 = 32 ∨ (Rect.block (s := S2x16x2048x2048) S1x1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x2048x2048 : Shape := ⟨3, ![2, 2048, 2048]⟩
abbrev S2x16x2048x2048 : Shape := ⟨4, ![2, 16, 2048, 2048]⟩
abbrev S_ : Shape := ⟨0, ![]⟩
abbrev S2x1x2048x2048 : Shape := ⟨4, ![2, 1, 2048, 2048]⟩
abbrev S2x16x2048 : Shape := ⟨3, ![2, 16, 2048]⟩
abbrev S2x16x2048x1 : Shape := ⟨4, ![2, 16, 2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x2048x2048, .i32⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S2x1x2048x2048, .i32⟩
  | .hbm, ⟨9, _⟩ => ⟨S_, .i32⟩
  | .hbm, ⟨10, _⟩ => ⟨S2x1x2048x2048, .i32⟩
  | .hbm, ⟨11, _⟩ => ⟨S2x1x2048x2048, .i1⟩
  | .hbm, ⟨12, _⟩ => ⟨S_, .f32⟩
  | .hbm, ⟨13, _⟩ => ⟨S_, .f32⟩
  | .hbm, ⟨14, _⟩ => ⟨S2x16x2048x2048, .i1⟩
  | .hbm, ⟨15, _⟩ => ⟨S2x16x2048x2048, .f32⟩
  | .hbm, ⟨16, _⟩ => ⟨S2x16x2048x2048, .f32⟩
  | .hbm, ⟨17, _⟩ => ⟨S_, .f32⟩
  | .hbm, ⟨18, _⟩ => ⟨S2x16x2048, .f32⟩
  | .hbm, ⟨19, _⟩ => ⟨S_, .f32⟩
  | .hbm, ⟨20, _⟩ => ⟨S2x16x2048, .f32⟩
  | .hbm, ⟨21, _⟩ => ⟨S2x16x2048, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .f32⟩
  | .hbm, ⟨26, _⟩ => ⟨S_, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S2x2048x2048_S2x1x2048x2048_0_2_3 : S2x2048x2048.BroadcastsInDim S2x1x2048x2048 (![0, 2, 3] : Fin 3 → Fin S2x1x2048x2048.rank)
  bcast_S_S2x1x2048x2048 : S_.BroadcastsInDim S2x1x2048x2048 (![] : Fin 0 → Fin S2x1x2048x2048.rank)
  bcast_S2x1x2048x2048_S2x16x2048x2048_0_1_2_3 : S2x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Softmax.lean ====
/-
  Masked scaled-dot-product attention over the extended reals, stated once for both programs.

  For a batch entry b, a head h and a query row i, the SCORE against key row j is the inner product of query row i and
  key row j over the 64 features, times the scale 1/8, replaced by the fill value -10^9 where the mask entry (b, i, j) is
  zero.  A row of scores s is turned into weights by the softmax: with M the maximum of the row (a fold of max starting
  from -infinity), the weight at j is exp(s j - M) divided by the sum over the row of exp(s k - M).  The attention array
  holds the weights; the context array holds, at (b, h, i, d), the sum over j of the weight (b, h, i, j) times the value
  entry (b, h, j, d).

  The three literals are kept as the words the programs print: the same word on both sides is never evaluated.
-/
import Idealize.ShloMosaic.PureOps.Ideal
import Idealize.ShloMosaic.Lib.ValueIdx

noncomputable section

open scoped BigOperators

namespace Cert.Attn

open Idealize.ShloMosaic Idealize.ShloMosaic.ValueIdx

/-- Queries, keys, values and the context: batch 2, heads 16, rows 2048, features 64. -/
abbrev SQ : Shape := ⟨4, ![2, 16, 2048, 64]⟩
/-- The mask: batch 2, query rows 2048, key rows 2048. -/
abbrev SM : Shape := ⟨3, ![2, 2048, 2048]⟩
/-- The attention weights: batch 2, heads 16, query rows 2048, key rows 2048. -/
abbrev SA : Shape := ⟨4, ![2, 16, 2048, 2048]⟩

/-- The scale 1/8 as its f32 word. -/
abbrev scale : EReal := Ideal.ofBits .f32 0x3E000000#32
/-- The value -10^9 a masked-out score is replaced by, as its f32 word. -/
abbrev fill : EReal := Ideal.ofBits .f32 0xCE6E6B28#32
/-- The word of -infinity, where a row maximum starts. -/
abbrev negInf : EReal := Ideal.ofBits .f32 0xFF800000#32

/-- One masked score from a row of the queries, a row of the keys and a mask word: the scaled inner product, or the
    fill value where the mask word is zero. -/
def maskedScore {nd : Nat} (q k : Fin nd → EReal) (w : BitVec 32) : EReal :=
  Scalar.select (IntOp.cmpi .eq w 0#32) fill ((∑ d : Fin nd, q d * k d) * scale)

/-- The maximum of a row, folded from -infinity. -/
def rowMax {n : Nat} (s : Fin n → EReal) : EReal := (Finset.univ : Finset (Fin n)).fold max negInf s

/-- The unnormalised weight: the exponential of the score less the row's maximum. -/
def expShift {n : Nat} (s : Fin n → EReal) (j : Fin n) : EReal := Ideal.exp (s j - rowMax s)

/-- The softmax of a row: each unnormalised weight over the row's sum of them. -/
def softmax {n : Nat} (s : Fin n → EReal) (j : Fin n) : EReal := Ideal.div (expShift s j) (∑ k : Fin n, expShift s k)

/-- The row of masked scores of query row i of batch entry b and head h against every key row. -/
def score (Q K : SQ.Idx → EReal) (M : SM.Idx → BitVec 32) (b : Fin 2) (h : Fin 16) (i : Fin 2048) (j : Fin 2048) : EReal :=
  maskedScore (fun d : Fin 64 => Q (ix4 b h i d)) (fun d : Fin 64 => K (ix4 b h j d)) (M (ix3 b i j))

/-- The attention weights as one array of the arguments. -/
def attn (Q K : SQ.Idx → EReal) (M : SM.Idx → BitVec 32) : SA.Idx → EReal := fun i =>
  softmax (score Q K M ⟨(i 0).val, (i 0).isLt⟩ ⟨(i 1).val, (i 1).isLt⟩ ⟨(i 2).val, (i 2).isLt⟩) ⟨(i 3).val, (i 3).isLt⟩

/-- The context as one array of the arguments: each row of weights against the matching column of the values. -/
def ctx (Q K V : SQ.Idx → EReal) (M : SM.Idx → BitVec 32) : SQ.Idx → EReal := fun i =>
  ∑ j : Fin 2048, softmax (score Q K M ⟨(i 0).val, (i 0).isLt⟩ ⟨(i 1).val, (i 1).isLt⟩ ⟨(i 2).val, (i 2).isLt⟩) j
    * V (ix4 (⟨(i 0).val, (i 0).isLt⟩ : Fin 2) (⟨(i 1).val, (i 1).isLt⟩ : Fin 16) j (⟨(i 3).val, (i 3).isLt⟩ : Fin 64))

/-- The attention array at an index given by its coordinates. -/
theorem attn_ix4 (Q K : SQ.Idx → EReal) (M : SM.Idx → BitVec 32) (b : Fin 2) (h : Fin 16) (i j : Fin 2048) :
    attn Q K M (ix4 b h i j) = softmax (score Q K M b h i) j := rfl

/-- The context array at an index given by its coordinates. -/
theorem ctx_ix4 (Q K V : SQ.Idx → EReal) (M : SM.Idx → BitVec 32) (b : Fin 2) (h : Fin 16) (i : Fin 2048) (d : Fin 64) :
    ctx Q K V M (ix4 b h i d) = ∑ j : Fin 2048, softmax (score Q K M b h i) j * V (ix4 b h j d) := rfl

/-- A maximum against -infinity is the other operand: the word 0xFF800000 denotes the bottom of the extended reals. -/
theorem max_negInf (x : EReal) : max negInf x = x := by
  show max (Ideal.ofBits .f32 0xFF800000#32) x = x
  simp [Ideal.ofBits, Ideal.ieee]

end Cert.Attn

end
-- ==== Proof.LibKeepdims.lean ====
/-
  Layout operations of small ranks read at an index given by its coordinates, for any element type: a cast that drops
  two leading unit axes, the cast of a vector to a one-column matrix, and the broadcast of a one-column matrix along its
  rows.  Together the last two are what a row reduction kept as a column (a sum or a maximum over the last axis,
  then broadcast back over that axis) reads as: at (p, c) the reduced vector's entry p.
-/
import Idealize.ShloMosaic.Lib.Pipeline.Value
import Idealize.ShloMosaic.Lib.ValueIdx

noncomputable section

namespace Cert.LibKeepdims

open Idealize.ShloMosaic Idealize.ShloMosaic.ValueIdx

variable {α : Type}

/-- A `[1, 1, a, b]` array cast to `[a, b]` reads, at `(i, j)`, the operand at `(0, 0, i, j)`: both positions in
    row-major order are `i * b + j`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a]` vector cast to the one-column matrix `[a, 1]` reads, at `(p, u)`, the vector's entry `p`: the column
    coordinate `u` can only be `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A one-column matrix `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row reduction kept as a column and broadcast back along the rows: the vector `x` of per-row results, cast to
    `[a, 1]` and broadcast to `[a, b]`, reads at `(p, c)` as `x` at `p`. -/
theorem keepdims_col_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Cert.LibKeepdims

end
-- ==== Proof.LibSoftmaxRow.lean ====
/-
  A softmax over the last axis of a rank-2 vector, as a kernel spells it, read at an index, at the ideal values.

  The kernel takes the row maximum (a reduction by max from -infinity), keeps it as a column, broadcasts it back over the
  row, subtracts, exponentiates, sums each row the same way and divides.  Read at (p, j) this is
  exp(x(p,j) - M_p) / (sum over k of exp(x(p,k) - M_p)) with M_p the fold of max over row p: the reductions read as folds
  and sums over the row's coordinates, and the two keepdims columns read back as the reduced vector's entry p.
-/
import Idealize.ShloMosaic.PureOps.Ideal.Laws
import Idealize.ShloMosaic.Lib.ValueIdx
import proofs.«125918_j70119636074661_2_alg».proof.Proof.LibKeepdims

noncomputable section

open scoped BigOperators

namespace Cert.LibSoftmaxRow

open Idealize.ShloMosaic Idealize.ShloMosaic.ValueIdx

variable {a b : ℕ}

/-- The source index above row `p` of the reduced vector with `k` put on the dropped last axis is `(p, k)`. -/
theorem lift_last (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A maximum reduction over the last axis, at row `p`: the fold of max from the accumulator's value over the row. -/
theorem rowMax_apply (x : FVec Ideal ⟨2, ![a, b]⟩ .f32) (acc : BitVec 32)
    (h : (⟨2, ![a, b]⟩ : Shape).Reduces [(1 : Fin 2)] ⟨1, ![a]⟩) (hφ : FKind.Formats .f32)
    (hacc : acc = FKind.maximumf.neutral .f32 hφ) (p : Fin a) :
    multiReduction .maximumf [(1 : Fin 2)] ⟨1, ![a]⟩ x acc h hφ hacc (ix1 p)
      = (Finset.univ : Finset (Fin b)).fold max (Ideal.ofBits .f32 acc) (fun k => x (ix2 p k)) := by
  refine (Ideal.multiReduction_maximumf_single x acc h hφ hacc (ix1 p)).trans ?_
  have hf : (x ∘ h.lift (ix1 p)) = fun k : Fin b => x (ix2 p k) := funext fun k => congrArg x (lift_last h p k)
  rw [hf]
  rfl

/-- A sum reduction over the last axis, at row `p`: the sum over the row. -/
theorem rowSum_apply (x : FVec Ideal ⟨2, ![a, b]⟩ .f32) (acc : BitVec 32)
    (h : (⟨2, ![a, b]⟩ : Shape).Reduces [(1 : Fin 2)] ⟨1, ![a]⟩) (hφ : FKind.Formats .f32)
    (hacc : acc = FKind.add.neutral .f32 hφ) (p : Fin a) :
    multiReduction .add [(1 : Fin 2)] ⟨1, ![a]⟩ x acc h hφ hacc (ix1 p) = ∑ k : Fin b, x (ix2 p k) := by
  refine (Ideal.multiReduction_add_single x acc h hφ hacc (ix1 p)).trans ?_
  exact Finset.sum_congr rfl fun k _ => congrArg x (lift_last h p k)

/-- The row softmax a kernel prints, read at `(p, j)`. -/
theorem softmax_apply (x : FVec Ideal ⟨2, ![a, b]⟩ .f32) (am az : BitVec 32)
    (h : (⟨2, ![a, b]⟩ : Shape).Reduces [(1 : Fin 2)] ⟨1, ![a]⟩) (hφ : FKind.Formats .f32)
    (hm : am = FKind.maximumf.neutral .f32 hφ) (hs : az = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (j : Fin b) :
    divf (exp (subf x (broadcastTo ⟨2, ![a, b]⟩ (shapeCast ⟨2, ![a, 1]⟩ (multiReduction .maximumf [(1 : Fin 2)] ⟨1, ![a]⟩ x am h hφ hm) hc) hb)))
      (broadcastTo ⟨2, ![a, b]⟩ (shapeCast ⟨2, ![a, 1]⟩
        (multiReduction .add [(1 : Fin 2)] ⟨1, ![a]⟩
          (exp (subf x (broadcastTo ⟨2, ![a, b]⟩ (shapeCast ⟨2, ![a, 1]⟩ (multiReduction .maximumf [(1 : Fin 2)] ⟨1, ![a]⟩ x am h hφ hm) hc) hb)))
          az h hφ hs) hc) hb) (ix2 p j)
    = Ideal.div (Ideal.exp (x (ix2 p j) - (Finset.univ : Finset (Fin b)).fold max (Ideal.ofBits .f32 am) (fun k => x (ix2 p k))))
        (∑ k : Fin b, Ideal.exp (x (ix2 p k) - (Finset.univ : Finset (Fin b)).fold max (Ideal.ofBits .f32 am) (fun k => x (ix2 p k)))) := by
  -- the shifted exponential at any entry of row p
  have he : ∀ k : Fin b,
      exp (subf x (broadcastTo ⟨2, ![a, b]⟩ (shapeCast ⟨2, ![a, 1]⟩ (multiReduction .maximumf [(1 : Fin 2)] ⟨1, ![a]⟩ x am h hφ hm) hc) hb)) (ix2 p k)
        = Ideal.exp (x (ix2 p k) - (Finset.univ : Finset (Fin b)).fold max (Ideal.ofBits .f32 am) (fun k => x (ix2 p k))) := by
    intro k
    show Ideal.exp (x (ix2 p k) - broadcastTo ⟨2, ![a, b]⟩ (shapeCast ⟨2, ![a, 1]⟩ (multiReduction .maximumf [(1 : Fin 2)] ⟨1, ![a]⟩ x am h hφ hm) hc) hb (ix2 p k)) = _
    rw [Cert.LibKeepdims.keepdims_col_apply, rowMax_apply]
  show Ideal.div (exp (subf x (broadcastTo ⟨2, ![a, b]⟩ (shapeCast ⟨2, ![a, 1]⟩ (multiReduction .maximumf [(1 : Fin 2)] ⟨1, ![a]⟩ x am h hφ hm) hc) hb)) (ix2 p j))
      (broadcastTo ⟨2, ![a, b]⟩ (shapeCast ⟨2, ![a, 1]⟩
        (multiReduction .add [(1 : Fin 2)] ⟨1, ![a]⟩
          (exp (subf x (broadcastTo ⟨2, ![a, b]⟩ (shapeCast ⟨2, ![a, 1]⟩ (multiReduction .maximumf [(1 : Fin 2)] ⟨1, ![a]⟩ x am h hφ hm) hc) hb)))
          az h hφ hs) hc) hb (ix2 p j)) = _
  rw [Cert.LibKeepdims.keepdims_col_apply, rowSum_apply, he j]
  exact congrArg _ (Finset.sum_congr rfl fun k _ => he k)

end Cert.LibSoftmaxRow

end
-- ==== Proof.KernelRow.lean ====
/-
  The kernel body's two stored values read at one entry, at the ideal values, over arbitrary loaded blocks.

  The body holds a block of 512 query rows, all 2048 key rows and value rows of one head, and the matching 512 x 2048
  block of the mask.  Its first matrix product contracts the feature axis of the query block with the feature axis of the
  key block, so entry (p, k) is the inner product of query row p and key row k; scaled and masked this is the score row of
  query row p, and the stored attention block at (p, j) is the softmax of that row at j.  The second product contracts
  the key axis of the attention block with the row axis of the value block, so the stored context block at (p, d) is the
  sum over k of the weight (p, k) times the value entry (k, d).
-/
import proofs.«125918_j70119636074661_2_alg».proof.Proof.Gen.KernelIdeal.Skeleton
import proofs.«125918_j70119636074661_2_alg».proof.Proof.Softmax
import proofs.«125918_j70119636074661_2_alg».proof.Proof.LibSoftmaxRow
import Idealize.ShloMosaic.Lib.ValueLayout
import Idealize.ShloMosaic.PureOps.Ideal.Laws

noncomputable section

open scoped BigOperators

namespace Cert.KernelIdeal.Row

open Cert.KernelIdeal Cert.KernelIdeal.Gen Idealize.ShloMosaic Idealize.ShloMosaic.ValueIdx Cert.Attn

/-! ## The two products' operand indices -/

theorem qk_lhs0 (i : S512x2048.Idx) (q : dot_S512x64_S2048x64_S512x2048_1_1_0_0_n_n.contr.Idx) : (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem qk_lhs1 (i : S512x2048.Idx) (q : dot_S512x64_S2048x64_S512x2048_1_1_0_0_n_n.contr.Idx) : (dot_S512x64_S2048x64_S512x2048_1_1_0_0_n_n.lhsIdx i q 1).val = (q ⟨0, by decide⟩).val :=
  dot_S512x64_S2048x64_S512x2048_1_1_0_0_n_n.lhsIdx_val_of_single rfl i q
theorem qk_rhs0 (i : S512x2048.Idx) (q : dot_S512x64_S2048x64_S512x2048_1_1_0_0_n_n.contr.Idx) : (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem qk_rhs1 (i : S512x2048.Idx) (q : dot_S512x64_S2048x64_S512x2048_1_1_0_0_n_n.contr.Idx) : (dot_S512x64_S2048x64_S512x2048_1_1_0_0_n_n.rhsIdx i q 1).val = (q ⟨0, by decide⟩).val :=
  dot_S512x64_S2048x64_S512x2048_1_1_0_0_n_n.rhsIdx_val_of_single rfl i q

theorem pv_lhs0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem pv_lhs1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
theorem pv_rhs0 (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
theorem pv_rhs1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-! ## The two products at an entry -/

/-- The product of the query block with the transposed key block, into a zero accumulator: entry (p, k) is the inner
    product of row p of the one and row k of the other over the 64 features. -/
theorem qk_apply (A : FVec Ideal S512x64 .f32) (B : FVec Ideal S2048x64 .f32) (p : Fin 512) (k : Fin 2048) :
    matmul dot_S512x64_S2048x64_S512x2048_1_1_0_0_n_n (some .fp32) A B (constant S512x2048 .f32 0x00000000#32) (ix2 p k)
      = ∑ d : Fin 64, A (ix2 p d) * B (ix2 k d) := by
  simp only [matmul]
  rw [Ideal.matmul_constant_zero_apply, ← Equiv.sum_comp (contrEquiv1 dot_S512x64_S2048x64_S512x2048_1_1_0_0_n_n 64 rfl rfl).symm]
  refine Finset.sum_congr rfl fun d _ => ?_
  have hk := contrEquiv1_symm_val dot_S512x64_S2048x64_S512x2048_1_1_0_0_n_n 64 rfl rfl d
  have el : dot_S512x64_S2048x64_S512x2048_1_1_0_0_n_n.lhsIdx (ix2 p k) ((contrEquiv1 dot_S512x64_S2048x64_S512x2048_1_1_0_0_n_n 64 rfl rfl).symm d) = ix2 p d := funext fun a => Fin.ext (by
    match a with
    | ⟨0, _⟩ => exact qk_lhs0 _ _
    | ⟨1, _⟩ => exact (qk_lhs1 _ _).trans hk)
  have er : dot_S512x64_S2048x64_S512x2048_1_1_0_0_n_n.rhsIdx (ix2 p k) ((contrEquiv1 dot_S512x64_S2048x64_S512x2048_1_1_0_0_n_n 64 rfl rfl).symm d) = ix2 k d := funext fun a => Fin.ext (by
    match a with
    | ⟨0, _⟩ => exact qk_rhs0 _ _
    | ⟨1, _⟩ => exact (qk_rhs1 _ _).trans hk)
  rw [el, er]

/-- The product of the weights with the value block, into a zero accumulator: entry (p, d) is the sum over the 2048 key
    rows k of the weight (p, k) times the value entry (k, d). -/
theorem pv_apply (A : FVec Ideal S512x2048 .f32) (B : FVec Ideal S2048x64 .f32) (p : Fin 512) (d : Fin 64) :
    matmul dot_S512x2048_S2048x64_S512x64_1_0_0_1_n_n (some .fp32) A B (constant S512x64 .f32 0x00000000#32) (ix2 p d)
      = ∑ k : Fin 2048, A (ix2 p k) * B (ix2 k d) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 p d) ((contrEquiv1 dot_S512x2048_S2048x64_S512x64_1_0_0_1_n_n 2048 rfl rfl).symm k) = ix2 p k := funext fun a => Fin.ext (by
    match a with
    | ⟨0, _⟩ => exact pv_lhs0 _ _
    | ⟨1, _⟩ => exact (pv_lhs1 _ _).trans hk)
  have er : dot_S512x2048_S2048x64_S512x64_1_0_0_1_n_n.rhsIdx (ix2 p d) ((contrEquiv1 dot_S512x2048_S2048x64_S512x64_1_0_0_1_n_n 2048 rfl rfl).symm k) = ix2 k d := funext fun a => Fin.ext (by
    match a with
    | ⟨0, _⟩ => exact (pv_rhs0 _ _).trans hk
    | ⟨1, _⟩ => exact pv_rhs1 _ _)
  rw [el, er]

/-! ## The stored values at an entry -/

/-- The row of masked scores of query row `p` of the loaded blocks: query block `P0`, key block `P1`, mask block `P2`. -/
def blockScore (P0 : Vec Ideal S1x1x512x64 .f32) (P1 : Vec Ideal S1x1x2048x64 .f32) (P2 : Vec Ideal S1x512x2048 .i32)
    (p : Fin 512) (k : Fin 2048) : EReal :=
  maskedScore (fun d : Fin 64 => P0 (ix4 (0 : Fin 1) (0 : Fin 1) p d)) (fun d : Fin 64 => P1 (ix4 (0 : Fin 1) (0 : Fin 1) k d))
    (P2 (ix3 (0 : Fin 1) p k))

/-- The scaled and masked scores the body computes, at entry (p, k). -/
theorem scores_apply (P0 : Vec Ideal S1x1x512x64 .f32) (P1 : Vec Ideal S1x1x2048x64 .f32) (P2 : Vec Ideal S1x512x2048 .i32)
    (h0 : S1x1x512x64.ShapeCasts S512x64) (h1 : S1x1x2048x64.ShapeCasts S2048x64) (h2 : S1x512x2048.ShapeCasts S512x2048)
    (p : Fin 512) (k : Fin 2048) :
    select (cmpi .eq (shapeCast S512x2048 P2 h2) (broadcast S512x2048 (0#32 : BitVec 32)))
        (broadcast S512x2048 (Scalar.ofBits (F := Ideal) .f32 0xCE6E6B28#32))
        (mulf (matmul dot_S512x64_S2048x64_S512x2048_1_1_0_0_n_n (some .fp32) (shapeCast S512x64 P0 h0 : FVec Ideal S512x64 .f32) (shapeCast S2048x64 P1 h1 : FVec Ideal S2048x64 .f32) (constant S512x2048 .f32 0x00000000#32))
          (broadcast S512x2048 (Scalar.ofBits (F := Ideal) .f32 0x3E000000#32))) (ix2 p k)
      = blockScore P0 P1 P2 p k := by
  show Scalar.select (IntOp.cmpi .eq (shapeCast S512x2048 P2 h2 (ix2 p k)) (0#32 : BitVec 32)) (Ideal.ofBits .f32 0xCE6E6B28#32)
      (matmul dot_S512x64_S2048x64_S512x2048_1_1_0_0_n_n (some .fp32) (shapeCast S512x64 P0 h0 : FVec Ideal S512x64 .f32) (shapeCast S2048x64 P1 h1 : FVec Ideal S2048x64 .f32) (constant S512x2048 .f32 0x00000000#32) (ix2 p k)
        * Ideal.ofBits .f32 0x3E000000#32) = _
  rw [qk_apply, shapeCast_1ab_ab_apply]
  unfold blockScore maskedScore
  refine congrArg (fun s => Scalar.select _ _ (s * _)) (Finset.sum_congr rfl fun d _ => ?_)
  rw [Cert.LibKeepdims.shapeCast_11ab_ab_apply, Cert.LibKeepdims.shapeCast_11ab_ab_apply]

/-- THE ATTENTION BLOCK the body stores, at (p, j): the softmax of query row p's masked scores, at j. -/
theorem pay2_apply (P0 : Vec Ideal S1x1x512x64 .f32) (P1 : Vec Ideal S1x1x2048x64 .f32) (P2 : Vec Ideal S1x512x2048 .i32)
    (p : Fin 512) (j : Fin 2048) :
    k0_pay2 P0 P1 P2 (ix2 p j) = softmax (blockScore P0 P1 P2 p) j := by
  unfold k0_pay2
  refine (Cert.LibSoftmaxRow.softmax_apply _ _ _ _ _ _ _ _ _ p j).trans ?_
  unfold softmax expShift rowMax
  simp only [scores_apply]

/-- THE CONTEXT BLOCK the body stores, at (p, d): the weights of query row p against column d of the value block `P3`. -/
theorem pay4_apply (P0 : Vec Ideal S1x1x512x64 .f32) (P1 : Vec Ideal S1x1x2048x64 .f32) (P3 : Vec Ideal S1x1x2048x64 .f32)
    (P2 : Vec Ideal S1x512x2048 .i32) (p : Fin 512) (d : Fin 64) :
    k0_pay4 P0 P1 P3 P2 (ix2 p d)
      = ∑ k : Fin 2048, softmax (blockScore P0 P1 P2 p) k * P3 (ix4 (0 : Fin 1) (0 : Fin 1) k d) := by
  unfold k0_pay4
  refine (pv_apply _ _ p d).trans (Finset.sum_congr rfl fun k _ => ?_)
  rw [pay2_apply, Cert.LibKeepdims.shapeCast_11ab_ab_apply]

end Cert.KernelIdeal.Row

end
-- ==== Proof.KernelArrays.lean ====
/-
  From blocks to arrays: after the kernel's run the two result arrays are the context and attention arrays of the
  specification.

  The grid has 2 x 4 x 16 points (batch entry, tile of 512 query rows, head).  At a point the query window holds rows
  [512 q, 512 q + 512) of head h of batch entry b, the key and value windows hold all 2048 rows of that head, the mask
  window holds rows [512 q, 512 q + 512) of batch entry b, and the two output windows hold the same 512 rows of head h.
  So row p of the blocks is row 512 q + p of the arrays, the score row the body computes for it is the specification's
  score row, and what the point writes back is the matching block of the specification's arrays.  The output blocks of
  the 128 points tile both arrays: the point covering row r is the one with q = r / 512.
-/
import proofs.«125918_j70119636074661_2_alg».proof.Proof.Gen.KernelIdeal.Value
import proofs.«125918_j70119636074661_2_alg».proof.Proof.KernelRow

noncomputable section

open scoped BigOperators

namespace Cert.KernelIdeal.Arrays

open Cert.KernelIdeal Cert.KernelIdeal.Gen Cert.KernelIdeal.Value Cert.KernelIdeal.Row
open Idealize.ShloMosaic Idealize.ShloMosaic.TcCoe Idealize.SL.Sem Idealize.ShloMosaic.ValueIdx Cert.Attn
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The printed index maps, decided over the grid: every window's block index on every axis in terms of the attention
    window's (batch entry, head, row tile, 0), and the ranges of those. -/
theorem idx_facts : ∀ t : Fin cfg0.N,
    (win0_0.index t (0 : Fin 4) = win0_5.index t (0 : Fin 4) ∧ win0_0.index t (1 : Fin 4) = win0_5.index t (1 : Fin 4)
      ∧ win0_0.index t (2 : Fin 4) = win0_5.index t (2 : Fin 4) ∧ win0_0.index t (3 : Fin 4) = 0)
    ∧ (win0_1.index t (0 : Fin 4) = win0_5.index t (0 : Fin 4) ∧ win0_1.index t (1 : Fin 4) = win0_5.index t (1 : Fin 4)
      ∧ win0_1.index t (2 : Fin 4) = 0 ∧ win0_1.index t (3 : Fin 4) = 0)
    ∧ (win0_2.index t (0 : Fin 4) = win0_5.index t (0 : Fin 4) ∧ win0_2.index t (1 : Fin 4) = win0_5.index t (1 : Fin 4)
      ∧ win0_2.index t (2 : Fin 4) = 0 ∧ win0_2.index t (3 : Fin 4) = 0)
    ∧ (win0_3.index t (0 : Fin 3) = win0_5.index t (0 : Fin 4) ∧ win0_3.index t (1 : Fin 3) = win0_5.index t (2 : Fin 4)
      ∧ win0_3.index t (2 : Fin 3) = 0)
    ∧ (win0_4.index t (0 : Fin 4) = win0_5.index t (0 : Fin 4) ∧ win0_4.index t (1 : Fin 4) = win0_5.index t (1 : Fin 4)
      ∧ win0_4.index t (2 : Fin 4) = win0_5.index t (2 : Fin 4) ∧ win0_4.index t (3 : Fin 4) = 0)
    ∧ (win0_5.index t (0 : Fin 4) ≤ 1 ∧ win0_5.index t (1 : Fin 4) ≤ 15 ∧ win0_5.index t (2 : Fin 4) ≤ 3
      ∧ win0_5.index t (3 : Fin 4) = 0) :=
  (by decide +kernel : ∀ t : Fin grid0.N, _)

/-- Every (batch entry, head, row tile) is some point's. -/
theorem idx_onto : ∀ (q0 : Fin 2) (q1 : Fin 16) (q2 : Fin 4), ∃ t : Fin cfg0.N, win0_5.index t = ![q0.val, q1.val, q2.val, 0] :=
  (by decide +kernel : ∀ (q0 : Fin 2) (q1 : Fin 16) (q2 : Fin 4), ∃ t : Fin grid0.N, win0_5.index t = ![q0.val, q1.val, q2.val, 0])

/-! ## The input blocks read where the arrays hold them -/

/-- The query block's row p is row 512 q + p of head h of batch entry b of the query array. -/
theorem read0 (c : Dev nD) (t : Fin cfg0.N) (b : Fin 2) (h : Fin 16) (r : Fin 2048) (d : Fin 64) (y : S1x1x512x64.Idx)
    (hb : b.val = win0_5.index t (0 : Fin 4)) (hh : h.val = win0_5.index t (1 : Fin 4))
    (hr : r.val = win0_5.index t (2 : Fin 4) * 512 + (y 2).val) (hd : d.val = (y 3).val) :
    iblk m c 0 t y = V m c main_arg0 (ix4 b h r d) := by
  obtain ⟨⟨e0, e1, e2, e3⟩, -⟩ := idx_facts t
  show V m c main_arg0 (((cfg0.win 0).blk t).view.emb y) = _
  refine congrArg _ (funext fun a => Fin.ext ?_)
  have hy0 : (y 0).val < 1 := (y 0).isLt
  have hy1 : (y 1).val < 1 := (y 1).isLt
  match a with
  | ⟨0, _⟩ => show win0_0.index t (0 : Fin 4) * 1 + 1 * (y 0).val = b.val; omega
  | ⟨1, _⟩ => show win0_0.index t (1 : Fin 4) * 1 + 1 * (y 1).val = h.val; omega
  | ⟨2, _⟩ => show win0_0.index t (2 : Fin 4) * 512 + 1 * (y 2).val = r.val; omega
  | ⟨3, _⟩ => show win0_0.index t (3 : Fin 4) * 64 + 1 * (y 3).val = d.val; omega

/-- The key block's row k is row k of head h of batch entry b of the key array. -/
theorem read1 (c : Dev nD) (t : Fin cfg0.N) (b : Fin 2) (h : Fin 16) (k : Fin 2048) (d : Fin 64) (y : S1x1x2048x64.Idx)
    (hb : b.val = win0_5.index t (0 : Fin 4)) (hh : h.val = win0_5.index t (1 : Fin 4))
    (hk : k.val = (y 2).val) (hd : d.val = (y 3).val) :
    iblk m c 1 t y = V m c main_arg1 (ix4 b h k d) := by
  obtain ⟨-, ⟨e0, e1, e2, e3⟩, -⟩ := idx_facts t
  show V m c main_arg1 (((cfg0.win 1).blk t).view.emb y) = _
  refine congrArg _ (funext fun a => Fin.ext ?_)
  have hy0 : (y 0).val < 1 := (y 0).isLt
  have hy1 : (y 1).val < 1 := (y 1).isLt
  match a with
  | ⟨0, _⟩ => show win0_1.index t (0 : Fin 4) * 1 + 1 * (y 0).val = b.val; omega
  | ⟨1, _⟩ => show win0_1.index t (1 : Fin 4) * 1 + 1 * (y 1).val = h.val; omega
  | ⟨2, _⟩ => show win0_1.index t (2 : Fin 4) * 2048 + 1 * (y 2).val = k.val; omega
  | ⟨3, _⟩ => show win0_1.index t (3 : Fin 4) * 64 + 1 * (y 3).val = d.val; omega

/-- The value block's row k is row k of head h of batch entry b of the value array. -/
theorem read2 (c : Dev nD) (t : Fin cfg0.N) (b : Fin 2) (h : Fin 16) (k : Fin 2048) (d : Fin 64) (y : S1x1x2048x64.Idx)
    (hb : b.val = win0_5.index t (0 : Fin 4)) (hh : h.val = win0_5.index t (1 : Fin 4))
    (hk : k.val = (y 2).val) (hd : d.val = (y 3).val) :
    iblk m c 2 t y = V m c main_arg2 (ix4 b h k d) := by
  obtain ⟨-, -, ⟨e0, e1, e2, e3⟩, -⟩ := idx_facts t
  show V m c main_arg2 (((cfg0.win 2).blk t).view.emb y) = _
  refine congrArg _ (funext fun a => Fin.ext ?_)
  have hy0 : (y 0).val < 1 := (y 0).isLt
  have hy1 : (y 1).val < 1 := (y 1).isLt
  match a with
  | ⟨0, _⟩ => show win0_2.index t (0 : Fin 4) * 1 + 1 * (y 0).val = b.val; omega
  | ⟨1, _⟩ => show win0_2.index t (1 : Fin 4) * 1 + 1 * (y 1).val = h.val; omega
  | ⟨2, _⟩ => show win0_2.index t (2 : Fin 4) * 2048 + 1 * (y 2).val = k.val; omega
  | ⟨3, _⟩ => show win0_2.index t (3 : Fin 4) * 64 + 1 * (y 3).val = d.val; omega

/-- The mask block's row p is row 512 q + p of batch entry b of the mask. -/
theorem read3 (c : Dev nD) (t : Fin cfg0.N) (b : Fin 2) (r k : Fin 2048) (y : S1x512x2048.Idx)
    (hb : b.val = win0_5.index t (0 : Fin 4)) (hr : r.val = win0_5.index t (2 : Fin 4) * 512 + (y 1).val)
    (hk : k.val = (y 2).val) :
    iblk m c 3 t y = V m c main_arg3 (ix3 b r k) := by
  obtain ⟨-, -, -, ⟨e0, e1, e2⟩, -⟩ := idx_facts t
  show V m c main_arg3 (((cfg0.win 3).blk t).view.emb y) = _
  refine congrArg _ (funext fun a => Fin.ext ?_)
  have hy0 : (y 0).val < 1 := (y 0).isLt
  match a with
  | ⟨0, _⟩ => show win0_3.index t (0 : Fin 3) * 1 + 1 * (y 0).val = b.val; omega
  | ⟨1, _⟩ => show win0_3.index t (1 : Fin 3) * 512 + 1 * (y 1).val = r.val; omega
  | ⟨2, _⟩ => show win0_3.index t (2 : Fin 3) * 2048 + 1 * (y 2).val = k.val; omega

/-- The score row the body computes for row p of its blocks is the specification's score row of row 512 q + p. -/
theorem blockScore_eq (c : Dev nD) (t : Fin cfg0.N) (b : Fin 2) (h : Fin 16) (r : Fin 2048) (p : Fin 512)
    (hb : b.val = win0_5.index t (0 : Fin 4)) (hh : h.val = win0_5.index t (1 : Fin 4))
    (hr : r.val = win0_5.index t (2 : Fin 4) * 512 + p.val) :
    blockScore (iblk m c 0 t) (iblk m c 1 t) (iblk m c 3 t) p
      = score (V m c main_arg0) (V m c main_arg1) (V m c main_arg3) b h r := by
  funext k
  have e0 : (fun d : Fin 64 => iblk m c 0 t (ix4 (0 : Fin 1) (0 : Fin 1) p d)) = fun d : Fin 64 => V m c main_arg0 (ix4 b h r d) :=
    funext fun d => read0 m c t b h r d _ hb hh hr rfl
  have e1 : (fun d : Fin 64 => iblk m c 1 t (ix4 (0 : Fin 1) (0 : Fin 1) k d)) = fun d : Fin 64 => V m c main_arg1 (ix4 b h k d) :=
    funext fun d => read1 m c t b h k d _ hb hh rfl rfl
  have e3 : iblk m c 3 t (ix3 (0 : Fin 1) p k) = V m c main_arg3 (ix3 b r k) := read3 m c t b r k _ hb hr rfl
  show maskedScore (fun d : Fin 64 => iblk m c 0 t (ix4 (0 : Fin 1) (0 : Fin 1) p d)) (fun d : Fin 64 => iblk m c 1 t (ix4 (0 : Fin 1) (0 : Fin 1) k d))
      (iblk m c 3 t (ix3 (0 : Fin 1) p k))
    = maskedScore (fun d : Fin 64 => V m c main_arg0 (ix4 b h r d)) (fun d : Fin 64 => V m c main_arg1 (ix4 b h k d)) (V m c main_arg3 (ix3 b r k))
  rw [e0, e1, e3]

/-! ## What a point writes back -/

/-- WHAT POINT `t` WRITES BACK to the attention array is block `t` of the specification's attention array. -/
theorem flushed5_eq (c : Dev nD) (t : Fin cfg0.N) :
    (dats m 0 c).flushed 5 t
      = ((cfg0.win 5).blk t).view.read (Elt Ideal) (attn (V m c main_arg0) (V m c main_arg1) (V m c main_arg3)) := by
  rw [Value.flushed5]
  unfold out0_5
  simp only [View.ld_unit_zero (S := S1x1x512x64) hz4, View.ld_unit_zero (S := S1x1x2048x64) hz4, View.ld_unit_zero (S := S1x512x2048) hz3]
  obtain ⟨-, -, -, -, -, ⟨g0, g1, g2, g3⟩⟩ := idx_facts t
  funext y
  have hy0 : (y 0).val < 1 := (y 0).isLt
  have hy1 : (y 1).val < 1 := (y 1).isLt
  have hy2 : (y 2).val < 512 := (y 2).isLt
  have hy3 : (y 3).val < 2048 := (y 3).isLt
  show View.canon ([⟨r0_3, k0_pay3 (iblk m c 0 t) (iblk m c 1 t) (iblk m c 3 t)⟩] : List (View.Piece (Elt Ideal) S1x1x512x2048 .f32)) y
    = attn (V m c main_arg0) (V m c main_arg1) (V m c main_arg3) (((cfg0.win 5).blk t).view.emb y)
  refine (Value.canon5_eq (iblk m c 0 t) (iblk m c 1 t) (iblk m c 3 t) y).trans ?_
  have hix : ix5_0 y = ix2 (⟨(y 2).val, hy2⟩ : Fin 512) (⟨(y 3).val, hy3⟩ : Fin 2048) :=
    funext fun a => Fin.ext (by match a with | ⟨0, _⟩ => rfl | ⟨1, _⟩ => rfl)
  have hemb : ((cfg0.win 5).blk t).view.emb y
      = ix4 (⟨win0_5.index t (0 : Fin 4), by omega⟩ : Fin 2) (⟨win0_5.index t (1 : Fin 4), by omega⟩ : Fin 16)
          (⟨win0_5.index t (2 : Fin 4) * 512 + (y 2).val, by omega⟩ : Fin 2048) (⟨(y 3).val, hy3⟩ : Fin 2048) :=
    funext fun a => Fin.ext (by
      match a with
      | ⟨0, _⟩ => show win0_5.index t (0 : Fin 4) * 1 + 1 * (y 0).val = win0_5.index t (0 : Fin 4); omega
      | ⟨1, _⟩ => show win0_5.index t (1 : Fin 4) * 1 + 1 * (y 1).val = win0_5.index t (1 : Fin 4); omega
      | ⟨2, _⟩ => show win0_5.index t (2 : Fin 4) * 512 + 1 * (y 2).val = win0_5.index t (2 : Fin 4) * 512 + (y 2).val; omega
      | ⟨3, _⟩ => show win0_5.index t (3 : Fin 4) * 2048 + 1 * (y 3).val = (y 3).val; omega)
  show k0_pay2 (iblk m c 0 t) (iblk m c 1 t) (iblk m c 3 t) (ix5_0 y) = _
  rw [hix, hemb, attn_ix4]
  refine (pay2_apply (iblk m c 0 t) (iblk m c 1 t) (iblk m c 3 t) _ _).trans ?_
  rw [blockScore_eq m c t (⟨win0_5.index t (0 : Fin 4), by omega⟩ : Fin 2) (⟨win0_5.index t (1 : Fin 4), by omega⟩ : Fin 16) (⟨win0_5.index t (2 : Fin 4) * 512 + (y 2).val, by omega⟩ : Fin 2048) (⟨(y 2).val, hy2⟩ : Fin 512) rfl rfl rfl]

/-- WHAT POINT `t` WRITES BACK to the context array is block `t` of the specification's context array. -/
theorem flushed4_eq (c : Dev nD) (t : Fin cfg0.N) :
    (dats m 0 c).flushed 4 t
      = ((cfg0.win 4).blk t).view.read (Elt Ideal) (ctx (V m c main_arg0) (V m c main_arg1) (V m c main_arg2) (V m c main_arg3)) := by
  rw [Value.flushed4]
  unfold out0_4
  simp only [View.ld_unit_zero (S := S1x1x512x64) hz4, View.ld_unit_zero (S := S1x1x2048x64) hz4, View.ld_unit_zero (S := S1x512x2048) hz3]
  obtain ⟨-, -, -, -, ⟨f0, f1, f2, f3⟩, ⟨g0, g1, g2, g3⟩⟩ := idx_facts t
  funext y
  have hy0 : (y 0).val < 1 := (y 0).isLt
  have hy1 : (y 1).val < 1 := (y 1).isLt
  have hy2 : (y 2).val < 512 := (y 2).isLt
  have hy3 : (y 3).val < 64 := (y 3).isLt
  show View.canon ([⟨r0_0, k0_pay1 (k0_pay4 (iblk m c 0 t) (iblk m c 1 t) (iblk m c 2 t) (iblk m c 3 t))⟩] : List (View.Piece (Elt Ideal) S1x1x512x64 .f32)) y
    = ctx (V m c main_arg0) (V m c main_arg1) (V m c main_arg2) (V m c main_arg3) (((cfg0.win 4).blk t).view.emb y)
  refine (Value.canon4_eq (iblk m c 0 t) (iblk m c 1 t) (iblk m c 2 t) (iblk m c 3 t) y).trans ?_
  have hix : ix4_0 y = ix2 (⟨(y 2).val, hy2⟩ : Fin 512) (⟨(y 3).val, hy3⟩ : Fin 64) :=
    funext fun a => Fin.ext (by match a with | ⟨0, _⟩ => rfl | ⟨1, _⟩ => rfl)
  have hemb : ((cfg0.win 4).blk t).view.emb y
      = ix4 (⟨win0_5.index t (0 : Fin 4), by omega⟩ : Fin 2) (⟨win0_5.index t (1 : Fin 4), by omega⟩ : Fin 16)
          (⟨win0_5.index t (2 : Fin 4) * 512 + (y 2).val, by omega⟩ : Fin 2048) (⟨(y 3).val, hy3⟩ : Fin 64) :=
    funext fun a => Fin.ext (by
      match a with
      | ⟨0, _⟩ => show win0_4.index t (0 : Fin 4) * 1 + 1 * (y 0).val = win0_5.index t (0 : Fin 4); omega
      | ⟨1, _⟩ => show win0_4.index t (1 : Fin 4) * 1 + 1 * (y 1).val = win0_5.index t (1 : Fin 4); omega
      | ⟨2, _⟩ => show win0_4.index t (2 : Fin 4) * 512 + 1 * (y 2).val = win0_5.index t (2 : Fin 4) * 512 + (y 2).val; omega
      | ⟨3, _⟩ => show win0_4.index t (3 : Fin 4) * 64 + 1 * (y 3).val = (y 3).val; omega)
  show k0_pay4 (iblk m c 0 t) (iblk m c 1 t) (iblk m c 2 t) (iblk m c 3 t) (ix4_0 y) = _
  rw [hix, hemb, ctx_ix4]
  refine (pay4_apply (iblk m c 0 t) (iblk m c 1 t) (iblk m c 2 t) (iblk m c 3 t) _ _).trans ?_
  rw [blockScore_eq m c t (⟨win0_5.index t (0 : Fin 4), by omega⟩ : Fin 2) (⟨win0_5.index t (1 : Fin 4), by omega⟩ : Fin 16) (⟨win0_5.index t (2 : Fin 4) * 512 + (y 2).val, by omega⟩ : Fin 2048) (⟨(y 2).val, hy2⟩ : Fin 512) rfl rfl rfl]
  refine Finset.sum_congr rfl fun k _ => ?_
  rw [read2 m c t (⟨win0_5.index t (0 : Fin 4), by omega⟩ : Fin 2) (⟨win0_5.index t (1 : Fin 4), by omega⟩ : Fin 16) k (⟨(y 3).val, hy3⟩ : Fin 64) (ix4 (0 : Fin 1) (0 : Fin 1) k (⟨(y 3).val, hy3⟩ : Fin 64)) rfl rfl rfl rfl]

/-! ## The output blocks tile the arrays -/

theorem mem_blk5 (t : Fin cfg0.N) (i : S2x16x2048x2048.Idx) :
    i ∈ ((cfg0.win 5).blk t).view.set ↔ ∀ a : Fin 4, win0_5.index t a * S1x1x512x2048.size a ≤ (i a).val ∧ (i a).val < win0_5.index t a * S1x1x512x2048.size a + S1x1x512x2048.size a := by
  show i ∈ ((View.whole main_v0_1).slice (win0_5.rect t)).set ↔ _
  rw [View.set_slice_whole, Rect.mem_set_unit]
  exact Iff.rfl

theorem mem_blk4 (t : Fin cfg0.N) (i : S2x16x2048x64.Idx) :
    i ∈ ((cfg0.win 4).blk t).view.set ↔ ∀ a : Fin 4, win0_4.index t a * S1x1x512x64.size a ≤ (i a).val ∧ (i a).val < win0_4.index t a * S1x1x512x64.size a + S1x1x512x64.size a := by
  show i ∈ ((View.whole main_v0_0).slice (win0_4.rect t)).set ↔ _
  rw [View.set_slice_whole, Rect.mem_set_unit]
  exact Iff.rfl

/-- Every index of the attention array is in the block of the point of its batch entry, head and row tile. -/
theorem cover5 (i : S2x16x2048x2048.Idx) : ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := idx_onto ⟨(i 0).val, hi0⟩ ⟨(i 1).val, hi1⟩ ⟨(i 2).val / 512, by omega⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

/-- Every index of the context array is in the block of the point of its batch entry, head and row tile. -/
theorem cover4 (i : S2x16x2048x64.Idx) : ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 512, by omega⟩
  obtain ⟨-, -, -, -, ⟨f0, f1, f2, f3⟩, -⟩ := idx_facts t
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-! ## The arrays after the run -/

/-- The attention array after the run. -/
theorem final5 (c : Dev nD) : (dats m 0 c).arrAt 5 cfg0.N = attn (V m c main_arg0) (V m c main_arg1) (V m c main_arg3) :=
  (dats m 0 c).arrAt_eq_of_cover 5 _ (fun t _ => flushed5_eq m c t) cover5

/-- The context array after the run. -/
theorem final4 (c : Dev nD) :
    (dats m 0 c).arrAt 4 cfg0.N = ctx (V m c main_arg0) (V m c main_arg1) (V m c main_arg2) (V m c main_arg3) :=
  (dats m 0 c).arrAt_eq_of_cover 4 _ (fun t _ => flushed4_eq m c t) cover4

/-- THE KERNEL'S RUN: every weakly fair execution terminates with the two result arrays at the specification's context and
    attention arrays of the argument arrays, the arguments unchanged. -/
theorem run : θ_run defs (onTc (τ := τ) (main (F := Ideal))) ⟨m, fun _ => 0, ρ⟩ fun r => ∀ c : Dev nD,
      r.2.mem ((c : Thread nD τ).loc main_v0_0)
          = ctx (m ((c : Thread nD τ).loc main_arg0)) (m ((c : Thread nD τ).loc main_arg1)) (m ((c : Thread nD τ).loc main_arg2)) (m ((c : Thread nD τ).loc main_arg3))
      ∧ r.2.mem ((c : Thread nD τ).loc main_v0_1)
          = attn (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.KernelIdeal.Arrays

end
-- ==== Proof.RefRow.lean ====
/-
  The reference's two results are the attention and context arrays of the specification.

  The reference computes all scores at once (a batched product over the feature axis, the scale, the mask broadcast over
  the heads), reduces each row by max from -infinity and takes the maximum of that with -infinity once more (which changes
  nothing), subtracts, exponentiates, sums each row from zero, divides, and multiplies the weights with the values by a
  second batched product.  Read at an index, stage by stage, these are the specification's masked score, row maximum,
  shifted exponential, row sum, softmax and weighted sum.
-/
import proofs.«125918_j70119636074661_2_alg».proof.Proof.Gen.ReferenceIdeal.Read
import proofs.«125918_j70119636074661_2_alg».proof.Proof.Softmax

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

variable (Q K V : (⟨S2x16x2048x64, .f32⟩ : BufTy).Contents (Elt Ideal)) (M : (⟨S2x2048x2048, .i32⟩ : BufTy).Contents (Elt Ideal))

/-- The reduction of the scores over their last axis, as a fact about the two shapes. -/
theorem reducesLast : Shape.Reduces S2x16x2048x2048 [(3 : Fin 4)] S2x16x2048 := by decide

/-- The source index above (b, h, i) with k on the dropped last axis is (b, h, i, k). -/
theorem lift_last (b : Fin 2) (h : Fin 16) (i k : Fin 2048) : reducesLast.lift (ix3 b h i) k = ix4 b h i k :=
  funext fun c => Fin.ext (by match c with | ⟨0, _⟩ => rfl | ⟨1, _⟩ => rfl | ⟨2, _⟩ => rfl | ⟨3, _⟩ => rfl)

/-- The masked scores the reference computes, at (b, h, i, j). -/
theorem ref_score (b : Fin 2) (h : Fin 16) (i j : Fin 2048) :
    val_main_v6 (F := Ideal) Q K M (ix4 b h i j) = score Q K M b h i j := by
  rw [val_main_v6_apply, val_main_call0_v1_apply, val_main_v5_apply, val_main_v3_apply, val_main_v4_apply, val_main_c_apply,
    val_main_call0_v2_apply, val_main_call0_v0_apply, val_main_cst_0_apply, val_main_v2_apply, val_main_v0_apply,
    val_main_v1_apply, val_main_cst_apply]
  have e1 : idx_main_v3 (idx_main_call0_v1 (ix4 b h i j)) = ix3 b i j :=
    funext fun a => Fin.ext (by match a with | ⟨0, _⟩ => rfl | ⟨1, _⟩ => rfl | ⟨2, _⟩ => rfl)
  have e2 : ∀ d : Fin 64, lidx_main_v0 (ix4 b h i j) d = ix4 b h i d := fun d =>
    funext fun a => Fin.ext (by match a with | ⟨0, _⟩ => rfl | ⟨1, _⟩ => rfl | ⟨2, _⟩ => rfl | ⟨3, _⟩ => rfl)
  have e3 : ∀ d : Fin 64, ridx_main_v0 (ix4 b h i j) d = ix4 b h j d := fun d =>
    funext fun a => Fin.ext (by match a with | ⟨0, _⟩ => rfl | ⟨1, _⟩ => rfl | ⟨2, _⟩ => rfl | ⟨3, _⟩ => rfl)
  rw [e1]
  simp only [e2, e3]
  rfl

/-- The row maximum the reference subtracts, at (b, h, i): the maximum with -infinity of the reduction from -infinity. -/
theorem ref_rowMax (b : Fin 2) (h : Fin 16) (i : Fin 2048) :
    val_main_v9 (F := Ideal) Q K M (ix3 b h i) = rowMax (score Q K M b h i) := by
  rw [val_main_v9_apply, val_main_v8_apply, val_main_cst_2_apply]
  unfold val_main_v7
  rw [Host.reduce_eq_fold_single FloatOps.maximumf _ _ reducesTo_S2x16x2048x2048_S2x16x2048_d3 reducesLast h_S_ (ix3 b h i)]
  have hf : (val_main_v6 (F := Ideal) Q K M ∘ reducesLast.lift (ix3 b h i)) = score Q K M b h i := funext fun k =>
    (congrArg (val_main_v6 (F := Ideal) Q K M) (lift_last b h i k)).trans (ref_score Q K M b h i k)
  rw [hf, val_main_cst_1_apply]
  exact max_negInf _

/-- The shifted exponential the reference computes, at (b, h, i, j). -/
theorem ref_exp (b : Fin 2) (h : Fin 16) (i j : Fin 2048) :
    val_main_v13 (F := Ideal) Q K M (ix4 b h i j) = expShift (score Q K M b h i) j := by
  rw [val_main_v13_apply, val_main_v12_apply, val_main_v11_apply, val_main_v10_apply]
  have e1 : idx_main_v10 (idx_main_v11 (ix4 b h i j)) = ix3 b h i :=
    funext fun a => Fin.ext (by match a with | ⟨0, _⟩ => rfl | ⟨1, _⟩ => rfl | ⟨2, _⟩ => rfl)
  rw [e1, ref_score, ref_rowMax]
  rfl

/-- The row sum the reference divides by, at (b, h, i). -/
theorem ref_sum (b : Fin 2) (h : Fin 16) (i : Fin 2048) :
    val_main_v14 (F := Ideal) Q K M (ix3 b h i) = ∑ k : Fin 2048, expShift (score Q K M b h i) k := by
  rw [val_main_v14_apply, val_main_cst_3_apply]
  show Ideal.ofBits .f32 0x00000000#32 + _ = _
  rw [Ideal.ofBits_zero_f32, zero_add]
  refine Finset.sum_congr rfl fun k _ => ?_
  have e1 : idx_main_v14 (ix3 b h i) k = ix4 b h i k :=
    funext fun a => Fin.ext (by match a with | ⟨0, _⟩ => rfl | ⟨1, _⟩ => rfl | ⟨2, _⟩ => rfl | ⟨3, _⟩ => rfl)
  rw [e1, ref_exp]

/-- THE REFERENCE'S ATTENTION RESULT is the specification's attention array. -/
theorem ref_attn : val_main_v17 (F := Ideal) Q K M = attn Q K M := by
  funext x
  obtain ⟨b, h, i, j, rfl⟩ : ∃ (b : Fin 2) (h : Fin 16) (i j : Fin 2048), x = ix4 b h i j := ⟨x 0, x 1, x 2, x 3, eq_ix4 x⟩
  rw [val_main_v17_apply, val_main_v16_apply, val_main_v15_apply]
  have e1 : idx_main_v15 (idx_main_v16 (ix4 b h i j)) = ix3 b h i :=
    funext fun a => Fin.ext (by match a with | ⟨0, _⟩ => rfl | ⟨1, _⟩ => rfl | ⟨2, _⟩ => rfl)
  rw [e1, ref_exp, ref_sum, attn_ix4]
  rfl

/-- THE REFERENCE'S CONTEXT RESULT is the specification's context array. -/
theorem ref_ctx : val_main_v18 (F := Ideal) Q K V M = ctx Q K V M := by
  funext x
  obtain ⟨b, h, i, d, rfl⟩ : ∃ (b : Fin 2) (h : Fin 16) (i : Fin 2048) (d : Fin 64), x = ix4 b h i d := ⟨x 0, x 1, x 2, x 3, eq_ix4 x⟩
  rw [val_main_v18_apply, ctx_ix4, ref_attn]
  refine Finset.sum_congr rfl fun k _ => ?_
  have e1 : lidx_main_v18 (ix4 b h i d) k = ix4 b h i k :=
    funext fun a => Fin.ext (by match a with | ⟨0, _⟩ => rfl | ⟨1, _⟩ => rfl | ⟨2, _⟩ => rfl | ⟨3, _⟩ => rfl)
  have e2 : ridx_main_v18 (ix4 b h i d) k = ix4 b h k d :=
    funext fun a => Fin.ext (by match a with | ⟨0, _⟩ => rfl | ⟨1, _⟩ => rfl | ⟨2, _⟩ => rfl | ⟨3, _⟩ => rfl)
  rw [e1, e2, attn_ix4]

end Cert.ReferenceIdeal.RefValue

end
-- ==== Proof.lean ====
/-
  The kernel is masked scaled-dot-product attention tiled over (batch entry, tile of 512 query rows, head); the reference
  is the same computation on whole arrays.  At the ideal values both end with the context array and the attention array
  of Proof/Softmax.lean: per query row, scores = (q . k) / 8 with -10^9 where the mask is zero, weights = softmax of the
  row, context = weights times values.

  The two sides differ only in arrangement.  The kernel's matrix products into a zero accumulator and the reference's
  batched products are the same sums over the contracted axis; the kernel's row maximum and row sum are reductions kept
  as columns, the reference's are host reductions from -infinity and from zero, and the reference takes one more maximum
  with -infinity, which is the identity; exp, subtraction and the exact division are one function on both sides.  No law
  used needs the inputs to be finite, so the precondition is never opened.

  Proof/KernelRow.lean reads the body's two stored blocks at an entry, Proof/KernelArrays.lean tiles the blocks of the
  128 grid points into the two arrays, Proof/RefRow.lean reads the reference's stages at an index.
-/
import proofs.«125918_j70119636074661_2_alg».proof.Defs
import proofs.«125918_j70119636074661_2_alg».proof.Proof.Gen.Kernel
import proofs.«125918_j70119636074661_2_alg».proof.Proof.Gen.Kernel.Skeleton
import proofs.«125918_j70119636074661_2_alg».proof.Proof.Gen.Kernel.Launch
import proofs.«125918_j70119636074661_2_alg».proof.Proof.Gen.Kernel.Points
import proofs.«125918_j70119636074661_2_alg».proof.Proof.Gen.Kernel.Frame
import proofs.«125918_j70119636074661_2_alg».proof.Proof.Gen.KernelIdeal
import proofs.«125918_j70119636074661_2_alg».proof.Proof.Gen.KernelIdeal.Skeleton
import proofs.«125918_j70119636074661_2_alg».proof.Proof.Gen.KernelIdeal.Launch
import proofs.«125918_j70119636074661_2_alg».proof.Proof.Gen.KernelIdeal.Points
import proofs.«125918_j70119636074661_2_alg».proof.Proof.Gen.KernelIdeal.Frame
import proofs.«125918_j70119636074661_2_alg».proof.Proof.Gen.ReferenceIdeal
import proofs.«125918_j70119636074661_2_alg».proof.Proof.Gen.Pre_finite_inputs
import proofs.«125918_j70119636074661_2_alg».proof.Proof.Gen.KernelIdeal.Value
import proofs.«125918_j70119636074661_2_alg».proof.Proof.Gen.ReferenceIdeal.Run
import proofs.«125918_j70119636074661_2_alg».proof.Proof.Gen.ReferenceIdeal.Read
import proofs.«125918_j70119636074661_2_alg».proof.Proof.KernelArrays
import proofs.«125918_j70119636074661_2_alg».proof.Proof.RefRow
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference runs and leaves its arguments as they were: its run, with what it says of the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the four arguments both programs end with the specification's context array and
    attention array of those arguments. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v18_eq, Cert.ReferenceIdeal.RefValue.ref_ctx,
      (hagree c).1, (hagree c).2.1, (hagree c).2.2.1, (hagree c).2.2.2]
  · rw [Cert.ReferenceIdeal.Read.val_main_v17_eq, Cert.ReferenceIdeal.RefValue.ref_attn,
      (hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
